-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S2048x512 : Shape := ⟨2, ![2048, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S16384x512 .f32) (main_arg1 : FVec F S2048x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  main_v8
-- ==== Kernel.lean ====
abbrev S16384x512 : Shape := ⟨2, ![16384, 512]⟩
abbrev S2048x512 : Shape := ⟨2, ![2048, 512]⟩
abbrev S_ : Shape := ⟨0, ![]⟩
abbrev S2048 : Shape := ⟨1, ![2048]⟩
abbrev S1x2048 : Shape := ⟨2, ![1, 2048]⟩
abbrev S16384x2048 : Shape := ⟨2, ![16384, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S2048x512, .f32⟩
  | .hbm, ⟨2, _⟩ => ⟨S2048x512, .f32⟩
  | .hbm, ⟨3, _⟩ => ⟨S_, .f32⟩
  | .hbm, ⟨4, _⟩ => ⟨S2048, .f32⟩
  | .hbm, ⟨5, _⟩ => ⟨S1x2048, .f32⟩
  | .hbm, ⟨6, _⟩ => ⟨S2048x512, .bf16⟩
  | .hbm, ⟨7, _⟩ => ⟨S16384x2048, .f32⟩
  | .local _ .vmem, ⟨0, _⟩ => ⟨S512x512, .f32⟩
  | .local _ .vmem, ⟨1, _⟩ => ⟨S512x512, .f32⟩
  | .local _ .vmem, ⟨2, _⟩ => ⟨S2048x512, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S2048x512_S2048_d1 : S2048x512.ReducesTo [1] S2048
  h_S_ : 0 < S_.numel
  bcast_S2048_S1x2048_1 : S2048.BroadcastsInDim S1x2048 (![1] : Fin 1 → Fin S1x2048.rank)
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  inb_S512x2048_S512x2048_0_0 : ∀ a, (![0, 0] : Fin 2 → Nat) a + S512x2048.size a ≤ S512x2048.size a
  h_S512x2048 : 0 < S512x2048.numel
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .bf16 = 32 ∨ (Rect.block (s := S2048x512) S2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x512 : Shape := ⟨2, ![16384, 512]⟩
abbrev S2048x512 : Shape := ⟨2, ![2048, 512]⟩
abbrev S_ : Shape := ⟨0, ![]⟩
abbrev S16384 : Shape := ⟨1, ![16384]⟩
abbrev S16384x1 : Shape := ⟨2, ![16384, 1]⟩
abbrev S2048 : Shape := ⟨1, ![2048]⟩
abbrev S1x2048 : Shape := ⟨2, ![1, 2048]⟩
abbrev S16384x2048 : Shape := ⟨2, ![16384, 2048]⟩

abbrev nBuf : Space → Nat
  | .hbm => 35
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S2048x512, .f32⟩
  | .hbm, ⟨2, _⟩ => ⟨S16384x512, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S2048x512, .f32⟩
  | .hbm, ⟨7, _⟩ => ⟨S_, .f32⟩
  | .hbm, ⟨8, _⟩ => ⟨S2048, .f32⟩
  | .hbm, ⟨9, _⟩ => ⟨S1x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .f32⟩
  | .hbm, ⟨26, _⟩ => ⟨S16384x1, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S16384x2048, .f32⟩
  | .hbm, ⟨34, _⟩ => ⟨S16384x2048, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S2048x512_S2048_d1 : S2048x512.ReducesTo [1] S2048
  bcast_S2048_S1x2048_1 : S2048.BroadcastsInDim S1x2048 (![1] : Fin 1 → Fin S1x2048.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  reducesTo_S16384x2048_S16384_d1 : S16384x2048.ReducesTo [1] S16384
  bcast_S_S16384 : S_.BroadcastsInDim S16384 (![] : Fin 0 → Fin S16384.rank)
  dot_S16384x512_S2048x512_S16384x2048_1_1_0_0_n_n_wf : DotDims.WF S16384x512 S2048x512 S16384x2048 [1] [1] [0] [0] [] []

variable [Facts₀]

def dot_S16384x512_S2048x512_S16384x2048_1_1_0_0_n_n : DotDims S16384x512 S2048x512 S16384x2048 where
  lhsContracting := [1]
  rhsContracting := [1]
  lhsNonContracting := [0]
  rhsNonContracting := [0]
  lhsBatch := []
  rhsBatch := []
  wf := dot_S16384x512_S2048x512_S16384x2048_1_1_0_0_n_n_wf

class Facts : Prop extends Facts₀ where

variable [Facts]
-- ==== Proof.LibSoftmaxShift.lean ====
/-
  A softmax that subtracts the row's greatest entry first does not see a shift of the whole row.

  Let l be a finite, non-empty family of real numbers and s a real number. The greatest of the entries l j − s is the
  greatest of the l j, less s; so every difference "entry minus greatest entry" is the same for the shifted family as
  for l itself. Whatever is then computed from those differences — an exponential of each, their sum, a quotient — is
  therefore the same for both. This is why softmax(−d²/2) over squared distances d² = |x|² + |c_j|² − 2<x, c_j> may drop
  the term |x|², and why attention scores may be moved by any per-row constant.

  The statements are on the extended reals, where a program's exact values live: the greatest entry is a fold of max
  from minus infinity (the bottom element), and the entries are real numbers seen as extended reals. With an infinite
  entry the law fails (∞ − ∞), so realness is a hypothesis, not a convenience. The exponential and the quotient are
  arbitrary functions here: only the differences matter.
-/
import Mathlib.Data.EReal.Basic
import Mathlib.Data.EReal.Operations
import Mathlib.Data.Finset.Fold
import Mathlib.Data.Finset.Max
import Mathlib.Data.Fintype.Basic
import Mathlib.Algebra.BigOperators.Group.Finset.Basic
import Mathlib.Tactic.Ring

noncomputable section

open scoped BigOperators

namespace Cert.LibSoftmaxShift

/-- A finite sum of real numbers, as an extended real, is the sum of them as extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

/-- The greatest entry of a family of real numbers, folded from minus infinity, is the entry that dominates the others. -/
theorem foldMax_real {ι : Type} [Fintype ι] (l : ι → ℝ) (j0 : ι) (h : ∀ j, l j ≤ l j0) :
    (Finset.univ : Finset ι).fold max (⊥ : EReal) (fun j => ((l j : ℝ) : EReal)) = ((l j0 : ℝ) : EReal) := by
  refine le_antisymm ?_ ?_
  · exact (Finset.fold_max_le _).2 ⟨bot_le, fun j _ => EReal.coe_le_coe_iff.2 (h j)⟩
  · exact (Finset.le_fold_max _).2 (Or.inr ⟨j0, Finset.mem_univ _, le_rfl⟩)

/-- Entry minus greatest entry is the same for a real family and for the family moved by a real number. -/
theorem sub_foldMax_shift {ι : Type} [Fintype ι] [Nonempty ι] (f g : ι → EReal) (l : ι → ℝ) (s : ℝ)
    (hf : ∀ j, f j = ((l j : ℝ) : EReal)) (hg : ∀ j, g j = ((l j - s : ℝ) : EReal)) (k : ι) :
    g k - (Finset.univ : Finset ι).fold max (⊥ : EReal) g = f k - (Finset.univ : Finset ι).fold max (⊥ : EReal) f := by
  obtain ⟨j0, -, hj0⟩ := Finset.exists_max_image (Finset.univ : Finset ι) l Finset.univ_nonempty
  have hF : f = fun j => ((l j : ℝ) : EReal) := funext hf
  have hG : g = fun j => (((fun j => l j - s) j : ℝ) : EReal) := funext hg
  have mF : (Finset.univ : Finset ι).fold max (⊥ : EReal) f = ((l j0 : ℝ) : EReal) := by
    rw [hF]; exact foldMax_real l j0 fun j => hj0 j (Finset.mem_univ _)
  have mG : (Finset.univ : Finset ι).fold max (⊥ : EReal) g = ((l j0 - s : ℝ) : EReal) := by
    rw [hG]; exact foldMax_real (fun j => l j - s) j0 fun j => sub_le_sub_right (hj0 j (Finset.mem_univ _)) s
  rw [mF, mG, hf k, hg k, ← EReal.coe_sub, ← EReal.coe_sub]
  congr 1; ring

/-- So a softmax with the greatest entry subtracted first — any function `E` of each difference, any function `Q` of one
    of them and of their sum — is the same for both families. -/
theorem softmax_shift {ι : Type} [Fintype ι] [Nonempty ι] (E : EReal → EReal) (Q : EReal → EReal → EReal)
    (f g : ι → EReal) (l : ι → ℝ) (s : ℝ)
    (hf : ∀ j, f j = ((l j : ℝ) : EReal)) (hg : ∀ j, g j = ((l j - s : ℝ) : EReal)) (k : ι) :
    Q (E (g k - (Finset.univ : Finset ι).fold max (⊥ : EReal) g)) (∑ j, E (g j - (Finset.univ : Finset ι).fold max (⊥ : EReal) g))
      = Q (E (f k - (Finset.univ : Finset ι).fold max (⊥ : EReal) f)) (∑ j, E (f j - (Finset.univ : Finset ι).fold max (⊥ : EReal) f)) := by
  simp only [sub_foldMax_shift f g l s hf hg]

end Cert.LibSoftmaxShift

end
-- ==== Proof.Spec.lean ====
/-
  Soft cluster responsibilities, as one function of the points and the centres.

  For a point x_b and centres c_k the responsibility of centre k is the softmax over k of a score. Two scores are in
  play. The short one is   s(b,k) = <x_b, c_k> - (1/2) |c_k|^2 ;   the long one is minus one half of the squared distance,
  t(b,k) = (-1/2) ((|x_b|^2 + |c_k|^2) - 2 <x_b, c_k>).   When every coordinate is a real number,
  t(b,k) = s(b,k) - (1/2) |x_b|^2 : the two differ by a shift that depends on the point only. A softmax taken with the
  row's greatest score subtracted first does not see such a shift: the greatest entry moves by the same amount, so every
  difference "score minus greatest score" is unchanged, and with it every exponential, their sum and the quotient.
  On the extended reals this needs the entries to be real: with an infinite score the differences are no longer defined
  by the field laws.
-/
import proofs.«115839_j57174604645136_2_alg».proof.Proof.LibSoftmaxShift
import Idealize.ShloMosaic.PureOps.Ideal.Laws
import Idealize.ShloMosaic.Lib.ValueIdx

noncomputable section

open scoped BigOperators

namespace Cert.Responsibilities

open Idealize.ShloMosaic Idealize.ShloMosaic.ValueIdx

/-- The points: 16384 rows of 512 coordinates. -/
abbrev SX : Shape := ⟨2, ![16384, 512]⟩
/-- The centres: 2048 rows of 512 coordinates. -/
abbrev SC : Shape := ⟨2, ![2048, 512]⟩
/-- The responsibilities: one row of 2048 per point. -/
abbrev SO : Shape := ⟨2, ![16384, 2048]⟩

/-- The inner product of point `b` and centre `k`. -/
def inner (x : SX.Idx → EReal) (c : SC.Idx → EReal) (b : Fin 16384) (k : Fin 2048) : EReal :=
  ∑ d : Fin 512, x (ix2 b d) * c (ix2 k d)

/-- The squared length of centre `k`, added up from the zero the sum starts at. -/
def centreSq (c : SC.Idx → EReal) (k : Fin 2048) : EReal :=
  Ideal.ofBits .f32 0x00000000#32 + ∑ d : Fin 512, c (ix2 k d) * c (ix2 k d)

/-- The squared length of point `b`, added up from the zero the sum starts at. -/
def pointSq (x : SX.Idx → EReal) (b : Fin 16384) : EReal :=
  Ideal.ofBits .f32 0x00000000#32 + ∑ d : Fin 512, x (ix2 b d) * x (ix2 b d)

/-- The short score: inner product minus half the centre's squared length (the half is the float literal 0.5). -/
def score (x : SX.Idx → EReal) (c : SC.Idx → EReal) (b : Fin 16384) (k : Fin 2048) : EReal :=
  inner x c b k - Ideal.ofBits .f32 0x3F000000#32 * centreSq c k

/-- The long score: minus one half of the squared distance, expanded (the literals are -0.5 and 2.0). -/
def distScore (x : SX.Idx → EReal) (c : SC.Idx → EReal) (b : Fin 16384) (k : Fin 2048) : EReal :=
  Ideal.ofBits .f32 0xBF000000#32 * ((pointSq x b + centreSq c k) - Ideal.ofBits .f32 0x40000000#32 * inner x c b k)

/-- A row's greatest entry, taken from minus infinity (the float literal 0xFF800000). -/
def rowMax (f : Fin 2048 → EReal) : EReal :=
  (Finset.univ : Finset (Fin 2048)).fold max (Ideal.ofBits .f32 0xFF800000#32) f

/-- The softmax of a row, with the row's greatest entry subtracted before the exponential. -/
def softmax (f : Fin 2048 → EReal) (k : Fin 2048) : EReal :=
  Ideal.div (Ideal.exp (f k - rowMax f)) (∑ j : Fin 2048, Ideal.exp (f j - rowMax f))

/-- The responsibilities: at `(b, k)` the softmax over the centres of point `b`'s short scores. -/
def resp (x : SX.Idx → EReal) (c : SC.Idx → EReal) : SO.Idx → EReal :=
  fun i => softmax (score x c (i 0)) (i 1)

theorem resp_apply (x : SX.Idx → EReal) (c : SC.Idx → EReal) (b : Fin 16384) (k : Fin 2048) :
    resp x c (ix2 b k) = softmax (score x c b) k := rfl

/-! ## The float literals -/

theorem ofBits_negInf : Ideal.ofBits .f32 0xFF800000#32 = ⊥ := by simp [Ideal.ofBits, Ideal.ieee]

theorem ofBits_half : Ideal.ofBits .f32 0x3F000000#32 = ((1 / 2 : ℝ) : EReal) := by
  simp [Ideal.ofBits, Ideal.ieee, -EReal.coe_mul]; norm_num

theorem ofBits_negHalf : Ideal.ofBits .f32 0xBF000000#32 = ((-(1 / 2) : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- Taking the greatest entry once more against minus infinity changes nothing. -/
theorem max_negInf_rowMax (f : Fin 2048 → EReal) : max (Ideal.ofBits .f32 0xFF800000#32) (rowMax f) = rowMax f := by
  rw [ofBits_negInf]; exact max_eq_right bot_le

/-! ## Real rows -/

/-- A row's greatest entry is the fold of max from the bottom of the extended reals. -/
theorem rowMax_eq (f : Fin 2048 → EReal) : rowMax f = (Finset.univ : Finset (Fin 2048)).fold max (⊥ : EReal) f := by
  unfold rowMax; rw [ofBits_negInf]

/-- Shifting a real row by a real number leaves its softmax unchanged: the greatest entry moves along, so the
    differences the exponentials are taken of do not change. -/
theorem softmax_shift (f g : Fin 2048 → EReal) (l : Fin 2048 → ℝ) (s : ℝ)
    (hf : ∀ j, f j = ((l j : ℝ) : EReal)) (hg : ∀ j, g j = ((l j - s : ℝ) : EReal)) : softmax g = softmax f := by
  haveI : Nonempty (Fin 2048) := ⟨0⟩
  funext k
  unfold softmax
  rw [rowMax_eq, rowMax_eq]
  exact Cert.LibSoftmaxShift.softmax_shift Ideal.exp Ideal.div f g l s hf hg k

/-- For real points and centres the long score is the short score moved by half the point's squared length,
    so both give one softmax. -/
theorem softmax_distScore (x : SX.Idx → EReal) (c : SC.Idx → EReal)
    (hx : ∀ i, ∃ r : ℝ, x i = (r : EReal)) (hc : ∀ i, ∃ r : ℝ, c i = (r : EReal)) (b : Fin 16384) :
    softmax (distScore x c b) = softmax (score x c b) := by
  choose xr hxr using hx
  choose cr hcr using hc
  refine softmax_shift (score x c b) (distScore x c b)
    (fun k => (∑ d : Fin 512, xr (ix2 b d) * cr (ix2 k d)) - (1 / 2) * ∑ d : Fin 512, cr (ix2 k d) * cr (ix2 k d))
    ((1 / 2) * ∑ d : Fin 512, xr (ix2 b d) * xr (ix2 b d)) ?_ ?_
  · intro k
    unfold score inner centreSq
    simp only [hxr, hcr, Ideal.ofBits_zero_f32, zero_add, ofBits_half, ← EReal.coe_mul, ← Cert.LibSoftmaxShift.coe_sum, ← EReal.coe_sub]
  · intro k
    unfold distScore inner centreSq pointSq
    simp only [hxr, hcr, Ideal.ofBits_zero_f32, zero_add, ofBits_negHalf, ofBits_two, ← EReal.coe_mul, ← Cert.LibSoftmaxShift.coe_sum,
      ← EReal.coe_sub, ← EReal.coe_add]
    congr 1; ring

end Cert.Responsibilities

end
-- ==== Proof.LibFiniteEntry.lean ====
/-
  Finite entries are real numbers.

  On the extended reals the absolute value of x is max(x, -x); it is +infinity exactly when x is one of the two
  infinities. So an entry whose absolute value is strictly below +infinity is a real number. A program tests "every entry
  of x is finite" as  all(|x| < inf):  the comparison entry by entry against a broadcast +infinity, reduced by `and` over
  every axis from the constant true. If the test's one result is true, every entry passed the comparison, and so is real.
-/
import Idealize.ShloMosaic.Lib.ReduceAll
import Idealize.ShloMosaic.Lib.ValueIdx
import Idealize.ShloMosaic.Lib.Pipeline.Value
import Idealize.ShloMosaic.PureOps.Ideal.Laws

noncomputable section

namespace Cert.LibFiniteEntry

open Idealize.ShloMosaic Idealize.ShloMosaic.ValueIdx

/-- The shape with no axes has one index. -/
instance : Subsingleton (⟨0, ![]⟩ : Shape).Idx := ⟨fun a b => funext fun d => d.elim0⟩

/-- An extended real whose absolute value is below +infinity is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- One "all entries are finite" test that came out true, read at an entry: the entry is a real number. -/
theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi (cmpf .olt (Host.absf x) (broadcastInDim s ![] hb (constant (F := Ideal) ⟨0, ![]⟩ .f32 0x7F800000#32)))
      init hr hu ix0 = 1#1)
    (i : s.Idx) : ∃ r : ℝ, x i = (r : EReal) := by
  have h1 := Host.reduce_andi_all _ init hr hu ix0 e i
  apply real_of_abs_lt_inf
  have hb' : broadcastInDim s ![] hb (constant (F := Ideal) ⟨0, ![]⟩ .f32 0x7F800000#32) i = Ideal.ofBits .f32 0x7F800000#32 :=
    broadcastInDim_apply _ hb _ i ix0 (fun a => a.elim0)
  rw [← hb']
  exact h1

end Cert.LibFiniteEntry

end
-- ==== Proof.Finite.lean ====
/-
  The precondition, read. The test "every float input is finite" compares the absolute value of each entry with
  plus infinity and takes the conjunction over both arrays; when its one result is true, each conjunct is true, and a
  true conjunct says every entry of that array has absolute value below plus infinity, that is, is a real number.
-/
import proofs.«115839_j57174604645136_2_alg».proof.Pre_finite_inputs
import proofs.«115839_j57174604645136_2_alg».proof.Proof.LibFiniteEntry

noncomputable section

namespace Cert.Proof.Finite

open Idealize.ShloMosaic Idealize.ShloMosaic.ValueIdx

/-- If the finiteness test of the points `x` and the centres `c` is true, every coordinate of both is a real number. -/
theorem real_of_pre [Cert.Pre_finite_inputs.Facts] (x : FVec Ideal Cert.Pre_finite_inputs.S16384x512 .f32)
    (c : FVec Ideal Cert.Pre_finite_inputs.S2048x512 .f32)
    (h : Cert.Pre_finite_inputs.fn (F := Ideal) x c = fun _ => 1#1) :
    (∀ i, ∃ r : ℝ, x i = (r : EReal)) ∧ (∀ i, ∃ r : ℝ, c i = (r : EReal)) := by
  have h0 := congrFun h ix0
  dsimp only [Cert.Pre_finite_inputs.fn] at h0
  obtain ⟨h1, h2⟩ := IntOp.andi_eq_one.1 h0
  exact ⟨Cert.LibFiniteEntry.real_of_all x _ _ _ _ h1, Cert.LibFiniteEntry.real_of_all c _ _ _ _ h2⟩

end Cert.Proof.Finite

end
-- ==== Proof.LibRowDot.lean ====
/-
  A matrix product whose right factor is contracted along its SECOND axis: `x · wᵀ` without a separate transposition.

  A matrix unit fed an `R × K` left factor and an `N × K` right factor, with dimension numbers that contract the
  second axis of both (`[1] × [1]`, nothing batched), accumulated into the zero matrix and read at exact arithmetic, is
  at the entry `(p, n)` the sum over the contracted coordinate `a : Fin K` of `l (p, a) * r (n, a)`; accumulated into any
  matrix `acc` it is `acc (p, n)` plus that sum. The four hypotheses say the dimension numbers are the ones described:
  each factor's index takes its row from the output index (the left factor from the output's row, the right factor
  from the output's column) and its column from the contraction index. Any extents, any float formats of the factors.
-/
import Idealize.ShloMosaic.PureOps.Ideal.Laws
import Idealize.ShloMosaic.Lib.ValueIdx

noncomputable section

open scoped BigOperators

namespace Cert.LibRowDot

open Idealize.ShloMosaic Idealize.ShloMosaic.ValueIdx

/-- `x · wᵀ` accumulated into `acc`, read at `(p, n)` in exact arithmetic: `acc (p, n) + ∑ a, l (p, a) * r (n, a)`. -/
theorem matmul_rows {R K N : Nat} {φ₁ φ₂ : FTy}
    (D : DotDims ⟨2, ![R, K]⟩ ⟨2, ![N, K]⟩ ⟨2, ![R, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (prec : Option ContractPrecision) (l : FVec Ideal ⟨2, ![R, K]⟩ φ₁) (r : FVec Ideal ⟨2, ![N, K]⟩ φ₂)
    (acc : FVec Ideal ⟨2, ![R, N]⟩ .f32) (p : Fin R) (n : Fin N) :
    FloatOps.matmul D prec l r acc (ix2 p n) = acc (ix2 p n) + ∑ a : Fin K, l (ix2 p a) * r (ix2 n a) := by
  rw [Ideal.matmul_apply, ← Equiv.sum_comp (contrEquiv1 D K hr hs).symm]
  refine congrArg (acc (ix2 p n) + ·) (Finset.sum_congr rfl fun k _ => ?_)
  have hk := contrEquiv1_symm_val D K hr hs k
  have el : D.lhsIdx (ix2 p n) ((contrEquiv1 D K hr hs).symm k) = ix2 p k := funext fun a => Fin.ext (by
    match a with
    | ⟨0, _⟩ => exact hl0 _ _
    | ⟨1, _⟩ => exact (hl1 _ _).trans hk)
  have er : D.rhsIdx (ix2 p n) ((contrEquiv1 D K hr hs).symm k) = ix2 n k := funext fun a => Fin.ext (by
    match a with
    | ⟨0, _⟩ => exact hr0 _ _
    | ⟨1, _⟩ => exact (hr1 _ _).trans hk)
  rw [el, er]

/-- The same accumulated into the zero matrix: the sum alone. -/
theorem matmul_rows_zero {R K N : Nat} {φ₁ φ₂ : FTy}
    (D : DotDims ⟨2, ![R, K]⟩ ⟨2, ![N, K]⟩ ⟨2, ![R, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (prec : Option ContractPrecision) (l : FVec Ideal ⟨2, ![R, K]⟩ φ₁) (r : FVec Ideal ⟨2, ![N, K]⟩ φ₂)
    (p : Fin R) (n : Fin N) :
    FloatOps.matmul D prec l r (constant ⟨2, ![R, N]⟩ .f32 0x00000000#32) (ix2 p n)
      = ∑ a : Fin K, l (ix2 p a) * r (ix2 n a) := by
  rw [matmul_rows D hr hs hl0 hl1 hr0 hr1 prec l r _ p n]
  show Ideal.ofBits .f32 0x00000000#32 + _ = _
  rw [Ideal.ofBits_zero_f32, zero_add]

end Cert.LibRowDot

end
-- ==== Proof.LibVectorReads.lean ====
/-
  A few vector layout operations and sums read at an entry, in exact arithmetic, for any extents.

  * A bias vector of length `N` cast to one row `[1, N]` and repeated over `R` rows reads, at `(r, n)`, the vector at `n`.
  * A sum over the last axis of a rank-3 array reads, at `(r, m)`, the sum over the last coordinate; the same for a
    rank-2 array at `r`.
  * An `[A, B]` array cast to `[A, 1, B]` reads, at `(r, u, k)`, the operand at `(r, k)`.
  * A `[K, 1]` column cast to a vector of length `K` reads, at `k`, the column at `(k, 0)`.
  * An `[R, 1, C]` array repeated along the middle axis to `[R, n, C]` reads, at `(r, m, k)`, the operand at `(r, 0, k)`.
-/
import Idealize.ShloMosaic.Lib.ValueLayout
import Idealize.ShloMosaic.Lib.Pipeline.Value
import Idealize.ShloMosaic.PureOps.Ideal.Laws

noncomputable section

open scoped BigOperators

namespace Cert.LibVectorReads

open Idealize.ShloMosaic Idealize.ShloMosaic.ValueIdx

/-- A bias vector cast to one row and repeated over `R` rows reads, at `(r, n)`, the vector at `n`. -/
theorem bias_rows_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- The sum over the last axis of an `[A, B, C]` array, at `(r, m)`. -/
theorem sum_last3_apply {A B C : ℕ} (src : FVec Ideal ⟨3, ![A, B, C]⟩ .f32)
    (h : (⟨3, ![A, B, C]⟩ : Shape).Reduces [(2 : Fin 3)] ⟨2, ![A, B]⟩) (hφ : FKind.Formats .f32)
    (hacc : (0x00000000#32 : BitVec 32) = FKind.add.neutral .f32 hφ) (r : Fin A) (m : Fin B) :
    multiReduction .add [(2 : Fin 3)] ⟨2, ![A, B]⟩ src 0x00000000#32 h hφ hacc (ix2 r m)
      = ∑ k : Fin C, src (ix3 r m k) := by
  refine (Ideal.multiReduction_add_single src _ h hφ hacc (ix2 r m)).trans ?_
  refine Finset.sum_congr rfl fun k _ => congrArg src ?_
  funext c
  apply Fin.ext
  match c with
  | ⟨0, _⟩ => rfl
  | ⟨1, _⟩ => rfl
  | ⟨2, _⟩ => rfl

/-- The sum over the last axis of an `[A, B]` array, at `r`. -/
theorem sum_last2_apply {A B : ℕ} (src : FVec Ideal ⟨2, ![A, B]⟩ .f32)
    (h : (⟨2, ![A, B]⟩ : Shape).Reduces [(1 : Fin 2)] ⟨1, ![A]⟩) (hφ : FKind.Formats .f32)
    (hacc : (0x00000000#32 : BitVec 32) = FKind.add.neutral .f32 hφ) (r : Fin A) :
    multiReduction .add [(1 : Fin 2)] ⟨1, ![A]⟩ src 0x00000000#32 h hφ hacc (ix1 r)
      = ∑ k : Fin B, src (ix2 r k) := by
  refine (Ideal.multiReduction_add_single src _ h hφ hacc (ix1 r)).trans ?_
  refine Finset.sum_congr rfl fun k _ => congrArg src ?_
  funext c
  apply Fin.ext
  match c with
  | ⟨0, _⟩ => rfl
  | ⟨1, _⟩ => rfl

/-- An `[A, B]` array cast to `[A, 1, B]` reads, at `(r, u, k)`, the operand at `(r, k)`. -/
theorem shapeCast_ab_a1b_apply {α : Type} {A B : ℕ} (x : (⟨2, ![A, B]⟩ : Shape).Idx → α)
    (h : (⟨2, ![A, B]⟩ : Shape).ShapeCasts ⟨3, ![A, 1, B]⟩) (r : Fin A) (u : Fin 1) (k : Fin B) :
    shapeCast ⟨3, ![A, 1, B]⟩ x h (ix3 r u k) = x (ix2 r k) :=
  shapeCast_apply x h _ _ (by
    have hu : u.val = 0 := by omega
    rw [Shape.rowMajor_val_two, Shape.rowMajor_val_three]
    show r.val * B + k.val = (r.val * 1 + u.val) * B + k.val
    rw [hu, Nat.mul_one, Nat.add_zero])

/-- A `[K, 1]` column cast to a vector reads, at `k`, the column at `(k, 0)`. -/
theorem shapeCast_a1_a_apply {α : Type} {K : ℕ} (x : (⟨2, ![K, 1]⟩ : Shape).Idx → α)
    (h : (⟨2, ![K, 1]⟩ : Shape).ShapeCasts ⟨1, ![K]⟩) (k : Fin K) :
    shapeCast ⟨1, ![K]⟩ x h (ix1 k) = x (ix2 k (0 : Fin 1)) :=
  shapeCast_apply x h _ _ (by
    rw [Shape.rowMajor_val_two, Shape.rowMajor_val_one]
    show k.val * 1 + 0 = k.val
    omega)

/-- An `[R, 1, C]` array repeated along the middle axis reads, at `(r, m, k)`, the operand at `(r, 0, k)`. -/
theorem repeat_mid_apply {α : Type} {R n C : ℕ} (v : (⟨3, ![R, 1, C]⟩ : Shape).Idx → α)
    (h : (⟨3, ![R, 1, C]⟩ : Shape).Broadcasts ⟨3, ![R, n, C]⟩) (r : Fin R) (m : Fin n) (k : Fin C) :
    broadcastTo ⟨3, ![R, n, C]⟩ v h (ix3 r m k) = v (ix3 r (0 : Fin 1) k) := by
  refine broadcastTo_apply v h (ix3 r m k) (ix3 r (0 : Fin 1) k) fun ax => ?_
  match ax with
  | ⟨0, _⟩ =>
    show r.val = if R = 1 then 0 else r.val
    split
    · have := r.isLt; omega
    · rfl
  | ⟨1, _⟩ => rfl
  | ⟨2, _⟩ =>
    show k.val = if C = 1 then 0 else k.val
    split
    · have := k.isLt; omega
    · rfl

end Cert.LibVectorReads

end
-- ==== Proof.LibLayout.lean ====
/-
  Three column forms of vector layout operations read at an index, for any extents: a vector of a values cast to a
  column [a, 1] reads the vector at the row; a column [a, 1] broadcast along a new last axis to [a, b] reads the
  column at the row; a single value [1, 1] broadcast to a column [a, 1] reads that value. (The row forms — a
  leading unit axis added or dropped, one row broadcast over many — are in the library already.)
-/
import Idealize.ShloMosaic.Lib.Pipeline.Value
import Idealize.ShloMosaic.Lib.ValueIdx

noncomputable section

namespace Cert.LibLayout

open Idealize.ShloMosaic Idealize.ShloMosaic.ValueIdx

variable {α : Type}

/-- An `[a]` array cast to the column `[a, 1]` reads, at `(p, z)`, the operand at `p`, whatever the unit coordinate `z`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single value `[1, 1]` broadcast to a column `[a, 1]` reads that value at every row. -/
theorem broadcastTo_11_a1_apply {a : ℕ} (v : (⟨2, ![1, 1]⟩ : Shape).Idx → α) (h : (⟨2, ![1, 1]⟩ : Shape).Broadcasts ⟨2, ![a, 1]⟩)
    (p : Fin a) (z : Fin 1) : broadcastTo ⟨2, ![a, 1]⟩ v h (ix2 p z) = v (ix2 (0 : Fin 1) (0 : Fin 1)) := by
  refine broadcastTo_apply v h (ix2 p z) (ix2 (0 : Fin 1) (0 : Fin 1)) fun ax => ?_
  match ax with
  | ⟨0, _⟩ => rfl
  | ⟨1, _⟩ => rfl

end Cert.LibLayout

end
-- ==== Proof.Payload.lean ====
/-
  The value the kernel's body stores, read at one entry.

  On a block of 512 points the body forms, for the point p and the centre k, the score
  s(p,k) = (sum over d of x0(p,d) * x1(k,d)) - 0.5 * x2(0,k), then the row's greatest score m(p), taken from minus
  infinity, the exponentials e(p,k) = exp (s(p,k) - m(p)), their row sum l(p), taken from zero, and stores
  e(p,k) / l(p). Read at the entry (p,q) this is the softmax over the centres of the row k -> s(p,k), at q.

  The body's term splits in two: the scores, and what is done to a matrix of scores whatever it is. The second half
  is read for an arbitrary matrix L: the row maximum stage (reduce along the row, cast to a column, repeat the column
  along the row) at (p,k) is the greatest entry of L's row p, and the row sum stage likewise is the sum of the row.
-/
import proofs.«115839_j57174604645136_2_alg».proof.Proof.Gen.KernelIdeal.Skeleton
import proofs.«115839_j57174604645136_2_alg».proof.Proof.Spec
import proofs.«115839_j57174604645136_2_alg».proof.Proof.LibRowDot
import proofs.«115839_j57174604645136_2_alg».proof.Proof.LibVectorReads
import proofs.«115839_j57174604645136_2_alg».proof.Proof.LibLayout
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

open scoped BigOperators

namespace Cert.KernelIdeal.Body

open Cert.KernelIdeal Cert.KernelIdeal.Gen Idealize.ShloMosaic Idealize.ShloMosaic.ValueIdx Cert.Responsibilities

/-! ## The two halves of the body's term -/

/-- The scores: the product of the points with the centres, contracted along the coordinates, minus half the centres'
    squared lengths repeated over the rows. -/
def scores (x0 : Vec Ideal S512x512 .f32) (x1 : Vec Ideal S2048x512 .bf16) (x2 : Vec Ideal S1x2048 .f32) :
    FVec Ideal S512x2048 .f32 :=
  subf
    (matmul (φ₁ := .bf16) (φ₂ := .bf16) dot_S512x512_S2048x512_S512x2048_1_1_0_0_n_n none
      (truncf .bf16 x0 bitsLt_bf16_f32 : FVec Ideal S512x512 .bf16)
      (shapeCast S2048x512 x1 shapeCasts_S2048x512_S2048x512 : FVec Ideal S2048x512 .bf16)
      (constant S512x2048 .f32 0x00000000#32))
    (broadcastTo S512x2048
      (mulf (broadcast S1x2048 (Scalar.ofBits .f32 0x3F000000#32)) (shapeCast S1x2048 x2 shapeCasts_S1x2048_S1x2048))
      broadcasts_S1x2048_S512x2048)

/-- The greatest entry of each row of a matrix, repeated along the row. -/
def rowMaxMat (L : FVec Ideal S512x2048 .f32) : FVec Ideal S512x2048 .f32 :=
  broadcastTo S512x2048
    (shapeCast S512x1 (multiReduction .maximumf [1] S512 L 0xFF800000#32 reduces_S512x2048_S512 (.inl rfl) rfl)
      shapeCasts_S512_S512x1)
    broadcasts_S512x1_S512x2048

/-- The sum of each row of a matrix, repeated along the row. -/
def rowSumMat (E : FVec Ideal S512x2048 .f32) : FVec Ideal S512x2048 .f32 :=
  broadcastTo S512x2048
    (shapeCast S512x1 (multiReduction .add [1] S512 E 0x00000000#32 reduces_S512x2048_S512 (.inl rfl) rfl)
      shapeCasts_S512_S512x1)
    broadcasts_S512x1_S512x2048

/-- The exponentials of a matrix's entries, each less its row's greatest entry. -/
def expMat (L : FVec Ideal S512x2048 .f32) : FVec Ideal S512x2048 .f32 := exp (subf L (rowMaxMat L))

/-- The body's term is the quotient of the exponentials of the scores by their row sums. -/
theorem k0_pay1_eq (x0 : Vec Ideal S512x512 .f32) (x1 : Vec Ideal S2048x512 .bf16) (x2 : Vec Ideal S1x2048 .f32) :
    k0_pay1 (F := Ideal) x0 x1 x2 = divf (expMat (scores x0 x1 x2)) (rowSumMat (expMat (scores x0 x1 x2))) := rfl

/-! ## The matrix product's index maps -/

theorem dot_lhs0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide),
    dif_pos (show (0 : Fin S512x512.rank) ∈ dot_S512x512_S2048x512_S512x2048_1_1_0_0_n_n.lhsNonContracting by decide)]
  rfl

theorem dot_lhs1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q

theorem dot_rhs0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide),
    dif_pos (show (0 : Fin S2048x512.rank) ∈ dot_S512x512_S2048x512_S512x2048_1_1_0_0_n_n.rhsNonContracting by decide)]
  rfl

theorem dot_rhs1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-! ## The stages at an entry -/

/-- The score of point `p` against centre `k`. -/
theorem scores_apply (x0 : Vec Ideal S512x512 .f32) (x1 : Vec Ideal S2048x512 .bf16) (x2 : Vec Ideal S1x2048 .f32)
    (p : Fin 512) (k : Fin 2048) :
    scores x0 x1 x2 (ix2 p k)
      = (∑ d : Fin 512, x0 (ix2 p d) * x1 (ix2 k d)) - Ideal.ofBits .f32 0x3F000000#32 * x2 (ix2 (0 : Fin 1) k) := by
  unfold scores
  rw [subf_apply, shapeCast_self, shapeCast_self, broadcastTo_1b_ab_apply, mulf_apply, broadcast_apply]
  refine congrArg₂ (· - ·) ?_ rfl
  exact Cert.LibRowDot.matmul_rows_zero dot_S512x512_S2048x512_S512x2048_1_1_0_0_n_n rfl rfl dot_lhs0 dot_lhs1 dot_rhs0
    dot_rhs1 none (φ₁ := .bf16) (φ₂ := .bf16) (truncf .bf16 x0 bitsLt_bf16_f32) x1 p k

/-- The row maximum stage at `(p, k)`: the greatest entry of row `p`, from minus infinity. -/
theorem rowMaxMat_apply (L : FVec Ideal S512x2048 .f32) (p : Fin 512) (k : Fin 2048) :
    rowMaxMat L (ix2 p k) = rowMax (fun j => L (ix2 p j)) := by
  unfold rowMaxMat
  rw [Cert.LibLayout.broadcastTo_a1_ab_apply, Cert.LibLayout.shapeCast_a_a1_apply]
  refine (Ideal.multiReduction_maximumf_single L _ reduces_S512x2048_S512 (.inl rfl) rfl (ix1 p)).trans ?_
  unfold rowMax
  refine congrArg (Finset.fold max (Ideal.ofBits .f32 0xFF800000#32) · (Finset.univ : Finset (Fin 2048))) ?_
  funext j
  refine congrArg L ?_
  funext c
  apply Fin.ext
  match c with
  | ⟨0, _⟩ => rfl
  | ⟨1, _⟩ => rfl

/-- The row sum stage at `(p, k)`: the sum of row `p`. -/
theorem rowSumMat_apply (E : FVec Ideal S512x2048 .f32) (p : Fin 512) (k : Fin 2048) :
    rowSumMat E (ix2 p k) = ∑ j : Fin 2048, E (ix2 p j) := by
  unfold rowSumMat
  rw [Cert.LibLayout.broadcastTo_a1_ab_apply, Cert.LibLayout.shapeCast_a_a1_apply]
  exact Cert.LibVectorReads.sum_last2_apply E reduces_S512x2048_S512 (.inl rfl) rfl p

/-- The exponential stage at `(p, k)`. -/
theorem expMat_apply (L : FVec Ideal S512x2048 .f32) (p : Fin 512) (k : Fin 2048) :
    expMat L (ix2 p k) = Ideal.exp (L (ix2 p k) - rowMax (fun j => L (ix2 p j))) := by
  unfold expMat
  show Ideal.exp (subf L (rowMaxMat L) (ix2 p k)) = _
  rw [subf_apply, rowMaxMat_apply]

/-! ## The stored value -/

/-- The body's stored value at `(p, q)`: the softmax over the centres of point `p`'s scores, at `q`. -/
theorem payload_apply (x0 : Vec Ideal S512x512 .f32) (x1 : Vec Ideal S2048x512 .bf16) (x2 : Vec Ideal S1x2048 .f32)
    (p : Fin 512) (q : Fin 2048) :
    k0_pay1 (F := Ideal) x0 x1 x2 (ix2 p q)
      = softmax (fun k => (∑ d : Fin 512, x0 (ix2 p d) * x1 (ix2 k d)) - Ideal.ofBits .f32 0x3F000000#32 * x2 (ix2 (0 : Fin 1) k)) q := by
  rw [k0_pay1_eq, divf_apply, rowSumMat_apply, expMat_apply]
  unfold softmax
  simp only [expMat_apply, scores_apply]

end Cert.KernelIdeal.Body

end
-- ==== Proof.Blocks.lean ====
/-
  From blocks to the whole array.

  The launch cuts the 16384 points into 32 blocks of 512 rows; grid point t works on rows 512 t … 512 t + 511. It sees
  all 2048 centres (stored in a narrower float format, which in exact arithmetic holds the same numbers) and the one row
  of their squared lengths, both prepared once before the launch, and writes rows 512 t … 512 t + 511 of the result, all
  2048 columns. A softmax row depends on its own row of scores only, and a score of point b on row b of the points only:
  so what the body computes on block t at local row p is the responsibility row of point 512 t + p. The 32 row blocks
  tile the result, so after the last point the result array is the responsibilities of all points.
-/
import proofs.«115839_j57174604645136_2_alg».proof.Proof.Gen.KernelIdeal.Value
import proofs.«115839_j57174604645136_2_alg».proof.Proof.Spec
import Idealize.ShloMosaic.Lib.Pipeline.Value
import Idealize.ShloMosaic.Lib.StableHlo.Run
import Idealize.ShloMosaic.Lib.ValueIdx
import Idealize.ShloMosaic.PureOps.Ideal.Laws

noncomputable section

open scoped BigOperators

namespace Cert.KernelIdeal.Hand

open Cert.KernelIdeal Cert.KernelIdeal.Gen Cert.KernelIdeal.Value
open Idealize.ShloMosaic Idealize.ShloMosaic.TcCoe Idealize.SL.Sem Idealize.ShloMosaic.ValueIdx Idealize.ShloMosaic.StableHlo
open Idealize.ShloMosaic.Pipeline (Dat)
open Cert.Responsibilities

variable (m : (ℓ : Loc nD τ sig) → Buf (Elt Ideal) ℓ) (ρ : Dev nD → PrngReg)

/-- What the body stores at local row `p`, column `q`, of its three loaded blocks: the softmax of the row of scores
    built from row `p` of the point block, the centres and the row of squared lengths. -/
def BodyReads : Prop :=
  ∀ (x0 : Vec Ideal S512x512 .f32) (x1 : Vec Ideal S2048x512 .bf16) (x2 : Vec Ideal S1x2048 .f32) (p : Fin 512) (q : Fin 2048),
    k0_pay1 (F := Ideal) x0 x1 x2 (ix2 p q)
      = softmax (fun k => (∑ d : Fin 512, x0 (ix2 p d) * x1 (ix2 k d)) - Ideal.ofBits .f32 0x3F000000#32 * x2 (ix2 (0 : Fin 1) k)) q

theorem hz : (![0, 0] : Fin 2 → Nat) = fun _ => 0 := funext fun a => by fin_cases a <;> rfl

/-! ## What the launch finds in the two prepared arrays -/

/-- The centres in the narrower format are the centres. -/
theorem found_centres (c : Dev nD) :
    (V m c main_v3 : S2048x512.Idx → EReal) = (m ((c : Thread nD τ).loc main_arg1) : S2048x512.Idx → EReal) := by
  have e : @Eq (S2048x512.Idx → EReal) (V m c main_v3)
      (truncf .bf16 (m ((c : Thread nD τ).loc main_arg1) : FVec Ideal S2048x512 .f32) bitsLt_bf16_f32 : FVec Ideal S2048x512 .bf16) := by
    dsimp only [V, hostOps0]; after_results; all_goals rfl
  exact e

/-- The squared lengths as the program prepares them — square every coordinate, add up each centre's row from zero, lay
    the 2048 sums out as one row — read at column `k`. -/
theorem centreSq_row (a : FVec Ideal S2048x512 .f32) (z : Fin 1) (k : Fin 2048) :
    broadcastInDim S1x2048 ![1] bcast_S2048_S1x2048_1
        (Host.reduceAdd (mulf a a) (constant (F := Ideal) S_ .f32 0x00000000#32) reducesTo_S2048x512_S2048_d1 h_S_) (ix2 z k)
      = centreSq a k := by
  refine (broadcastInDim_apply _ bcast_S2048_S1x2048_1 _ (ix2 z k) (ix1 k) (fun ax => match ax with
    | ⟨0, _⟩ => by show k.val = if (2048 : Nat) = 1 then 0 else k.val; rw [if_neg (by decide)])).trans ?_
  simp only [Host.reduceAdd, Ideal.hostReduceAdd_def]
  rw [Ideal.hostReduceAdd_single reducesTo_S2048x512_S2048_d1 (by decide)]
  unfold centreSq
  refine congrArg (_ + ·) (Finset.sum_congr rfl fun d _ => ?_)
  exact congrArg (mulf a a) (funext fun ax => Fin.ext (by match ax with | ⟨0, _⟩ => rfl | ⟨1, _⟩ => rfl))

/-- The prepared row holds, at column `k`, the squared length of centre `k`. -/
theorem found_centreSq (c : Dev nD) (z : Fin 1) (k : Fin 2048) :
    (V m c main_v2 : S1x2048.Idx → EReal) (ix2 z k) = centreSq (m ((c : Thread nD τ).loc main_arg1)) k := by
  have e : @Eq (S1x2048.Idx → EReal) (V m c main_v2)
      (broadcastInDim S1x2048 ![1] bcast_S2048_S1x2048_1
          (Host.reduceAdd (mulf (m ((c : Thread nD τ).loc main_arg1) : FVec Ideal S2048x512 .f32) (m ((c : Thread nD τ).loc main_arg1)))
            (constant (F := Ideal) S_ .f32 0x00000000#32) reducesTo_S2048x512_S2048_d1 h_S_)) := by
    dsimp only [V, hostOps0]; after_results; all_goals rfl
  exact (congrFun e (ix2 z k)).trans (centreSq_row _ z k)

/-! ## The blocks a grid point loads -/

/-- Where each window's block sits, decided over the 32 grid points: the point block and the result block move down
    one block of rows per point, the centres and the row of squared lengths stay. -/
theorem block_places : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem row_lt (t : Fin cfg0.N) (p : Fin 512) : 512 * t.val + p.val < 16384 := by
  have ht : t.val < 32 := lt_of_lt_of_eq t.isLt (show cfg0.N = 32 from N_0)
  have hp := p.isLt
  omega

/-- Local row `p` of point `t`'s block of points is row `512 t + p` of the points. -/
theorem points_block (c : Dev nD) (t : Fin cfg0.N) (p : Fin 512) (d : Fin 512) :
    (iblk m c 0 t : S512x512.Idx → EReal) (ix2 p d)
      = (m ((c : Thread nD τ).loc main_arg0) : S16384x512.Idx → EReal) (ix2 ⟨512 * t.val + p.val, row_lt t p⟩ d) := by
  obtain ⟨e0, e1, -⟩ := block_places t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 512 + 1 * p.val = 512 * t.val + p.val; rw [e0]; omega
  | ⟨1, _⟩ => show win0_0.index t (1 : Fin 2) * 512 + 1 * d.val = d.val; rw [e1]; omega

/-- Every point loads all the centres. -/
theorem centres_block (c : Dev nD) (t : Fin cfg0.N) (k : Fin 2048) (d : Fin 512) :
    (iblk m c 1 t : S2048x512.Idx → EReal) (ix2 k d)
      = (m ((c : Thread nD τ).loc main_arg1) : S2048x512.Idx → EReal) (ix2 k d) := by
  obtain ⟨-, -, e0, e1, -⟩ := block_places t
  unfold iblk
  rw [View.read_apply]
  show (V m c main_v3 : S2048x512.Idx → EReal) _ = _
  rw [found_centres]
  congr 1
  funext a
  apply Fin.ext
  match a with
  | ⟨0, _⟩ => show win0_1.index t (0 : Fin 2) * 2048 + 1 * k.val = k.val; rw [e0]; omega
  | ⟨1, _⟩ => show win0_1.index t (1 : Fin 2) * 512 + 1 * d.val = d.val; rw [e1]; omega

/-- Every point loads the whole row of squared lengths. -/
theorem centreSq_block (c : Dev nD) (t : Fin cfg0.N) (z : Fin 1) (k : Fin 2048) :
    (iblk m c 2 t : S1x2048.Idx → EReal) (ix2 z k) = centreSq (m ((c : Thread nD τ).loc main_arg1)) k := by
  obtain ⟨-, -, -, -, e0, e1, -⟩ := block_places t
  unfold iblk
  rw [View.read_apply]
  show (V m c main_v2 : S1x2048.Idx → EReal) _ = _
  refine Eq.trans (congrArg (V m c main_v2 : S1x2048.Idx → EReal) ?_) (found_centreSq m c z k)
  funext a
  apply Fin.ext
  match a with
  | ⟨0, _⟩ => show win0_2.index t (0 : Fin 2) * 1 + 1 * z.val = z.val; rw [e0]; omega
  | ⟨1, _⟩ => show win0_2.index t (1 : Fin 2) * 2048 + 1 * k.val = k.val; rw [e1]; omega

/-! ## What a grid point writes back -/

/-- The body's result on point `t`'s blocks, at local row `p` and column `q`: the responsibility of centre `q` for
    point `512 t + p`. -/
theorem body_entry (hbody : BodyReads) (c : Dev nD) (t : Fin cfg0.N) (p : Fin 512) (q : Fin 2048) :
    k0_pay1 (F := Ideal) (iblk m c 0 t) (iblk m c 1 t) (iblk m c 2 t) (ix2 p q)
      = resp (m ((c : Thread nD τ).loc main_arg0)) (m ((c : Thread nD τ).loc main_arg1)) (ix2 ⟨512 * t.val + p.val, row_lt t p⟩ q) := by
  refine (hbody (iblk m c 0 t) (iblk m c 1 t) (iblk m c 2 t) p q).trans ?_
  refine Eq.trans ?_ (resp_apply _ _ _ _).symm
  refine congrArg (fun f => softmax f q) (funext fun k => ?_)
  unfold score Cert.Responsibilities.inner
  rw [centreSq_block m c t 0 k]
  refine congrArg (· - _) (Finset.sum_congr rfl fun d _ => ?_)
  rw [points_block m c t p d, centres_block m c t k d]

/-- What point `t` writes back is block `t` of the responsibilities. -/
theorem flushed_eq (hbody : BodyReads) (c : Dev nD) (t : Fin cfg0.N) :
    (dats m 0 c).flushed 3 t = ((cfg0.win 3).blk t).view.read (Elt Ideal)
      (resp (m ((c : Thread nD τ).loc main_arg0)) (m ((c : Thread nD τ).loc main_arg1))) := by
  rw [flushed3]
  unfold out0_3
  rw [View.canon_unit_zero hz]
  simp only [View.ld_unit_zero (S := S512x512) hz, View.ld_unit_zero (S := S2048x512) hz, View.ld_unit_zero (S := S1x2048) hz]
  obtain ⟨-, -, -, -, -, -, e0, e1⟩ := block_places t
  funext j
  show k0_pay1 (F := Ideal) (iblk m c 0 t) (iblk m c 1 t) (iblk m c 2 t) j
    = resp (m ((c : Thread nD τ).loc main_arg0)) (m ((c : Thread nD τ).loc main_arg1)) (((cfg0.win 3).blk t).view.emb j)
  have hj : (j : S512x2048.Idx) = ix2 (j 0) (j 1) := eq_ix2 (n0 := 512) (n1 := 2048) j
  refine Eq.trans (congrArg (k0_pay1 (F := Ideal) (iblk m c 0 t) (iblk m c 1 t) (iblk m c 2 t)) hj) ?_
  refine (body_entry m hbody c t (j 0) (j 1)).trans ?_
  refine congrArg (resp _ _) ?_
  funext a
  apply Fin.ext
  match a with
  | ⟨0, _⟩ => show 512 * t.val + (j 0).val = win0_3.index t (0 : Fin 2) * 512 + 1 * (j 0).val; rw [e0]; omega
  | ⟨1, _⟩ => show (j 1).val = win0_3.index t (1 : Fin 2) * 2048 + 1 * (j 1).val; rw [e1]; omega

/-! ## The cover, and the array after the run -/

/-- An index of the result is in point `t`'s block iff each coordinate is in the block's range on its axis. -/
theorem mem_block (t : Fin cfg0.N) (i : S16384x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v4).slice (win0_3.rect t)).set ↔ _
  rw [View.set_slice_whole, Rect.mem_set_unit]
  exact Iff.rfl

/-- Row `r` of the result lies in the block of point `r / 512`. -/
theorem covered (i : S16384x2048.Idx) :
    ∃ t : Fin cfg0.N, (cfg0.win 3).flush t = true ∧ i ∈ ((cfg0.win 3).blk t).view.set := by
  have hi0 : (i 0).val < 16384 := idx2_lt0 i
  have hi1 : (i 1).val < 2048 := idx2_lt1 i
  let t : Fin cfg0.N := ⟨(i 0).val / 512, by rw [show cfg0.N = 32 from N_0]; omega⟩
  obtain ⟨-, -, -, -, -, -, e0, e1⟩ := block_places t
  refine ⟨t, flush0_3 t, ?_⟩
  rw [mem_block]
  intro a
  have ht : t.val = (i 0).val / 512 := rfl
  match a with
  | ⟨0, _⟩ =>
    show win0_3.index t (0 : Fin 2) * 512 ≤ (i 0).val ∧ (i 0).val < win0_3.index t (0 : Fin 2) * 512 + 512
    rw [e0, ht]; omega
  | ⟨1, _⟩ =>
    show win0_3.index t (1 : Fin 2) * 2048 ≤ (i 1).val ∧ (i 1).val < win0_3.index t (1 : Fin 2) * 2048 + 2048
    rw [e1]; omega

/-- After the run the result array holds the responsibilities of the argument arrays. -/
theorem final (hbody : BodyReads) (c : Dev nD) :
    (dats m 0 c).arrAt 3 cfg0.N = resp (m ((c : Thread nD τ).loc main_arg0)) (m ((c : Thread nD τ).loc main_arg1)) :=
  (dats m 0 c).arrAt_eq_of_cover 3 (resp (m ((c : Thread nD τ).loc main_arg0)) (m ((c : Thread nD τ).loc main_arg1)))
    (fun t _ => flushed_eq m hbody c t) covered

/-- The run, read: the result at the responsibilities, the arguments unchanged. -/
theorem run (hbody : BodyReads) : θ_run defs (onTc (τ := τ) (main (F := Ideal))) ⟨m, fun _ => 0, ρ⟩ fun r => ∀ c : Dev nD,
      r.2.mem ((c : Thread nD τ).loc main_v4) = resp (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m hbody c), (h c).2⟩) (run_blocks m ρ)

end Cert.KernelIdeal.Hand

end
-- ==== Proof.RefIsResp.lean ====
/-
  The idealized reference, read index by index, is the responsibilities.

  The reference forms, for every point b and centre j, the long score t(b,j) = (-1/2) ((|x_b|^2 + |c_j|^2) - 2 <x_b, c_j>),
  takes each row's greatest score (a fold of max from minus infinity, then once more the maximum against minus infinity),
  subtracts it, exponentiates, sums each row from zero and divides. Each stage is read below at explicit coordinates;
  the last step is that for real points and centres the long scores and the short ones have one softmax.
-/
import proofs.«115839_j57174604645136_2_alg».proof.Proof.Gen.ReferenceIdeal.Read
import proofs.«115839_j57174604645136_2_alg».proof.Proof.Spec
import Idealize.ShloMosaic.PureOps.Reduce
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.Responsibilities

/-! ## The index functions of the layout operations, at explicit coordinates -/

/-- Row `b` of the points, coordinate `d`: where the point's squared length reads its operand. -/
theorem idx_point (b : Fin 16384) (j : Fin 2048) (d : Fin 512) :
    idx_main_v1 (idx_main_v2 (idx_main_v7 (ix2 b j))) d = ix2 b d := by
  funext a; match a with | ⟨0, _⟩ => rfl | ⟨1, _⟩ => rfl

/-- Row `j` of the centres, coordinate `d`: where the centre's squared length reads its operand. -/
theorem idx_centre (b : Fin 16384) (j : Fin 2048) (d : Fin 512) :
    idx_main_v4 (idx_main_v5 (idx_main_v8 (ix2 b j))) d = ix2 j d := by
  funext a; match a with | ⟨0, _⟩ => rfl | ⟨1, _⟩ => rfl

/-- The inner product's left operand is read at row `b` of the points. -/
theorem idx_left (b : Fin 16384) (j : Fin 2048) (d : Fin 512) : lidx_main_v6 (ix2 b j) d = ix2 b d := by
  funext a; match a with | ⟨0, _⟩ => rfl | ⟨1, _⟩ => rfl

/-- The inner product's right operand is read at row `j` of the centres. -/
theorem idx_right (b : Fin 16384) (j : Fin 2048) (d : Fin 512) : ridx_main_v6 (ix2 b j) d = ix2 j d := by
  funext a; match a with | ⟨0, _⟩ => rfl | ⟨1, _⟩ => rfl

/-- The row's greatest score, broadcast along the row, is read at the row. -/
theorem idx_max (b : Fin 16384) (j : Fin 2048) : idx_main_v18 (idx_main_v19 (ix2 b j)) = ix1 b := by
  funext a; match a with | ⟨0, _⟩ => rfl

/-- The row's sum of exponentials reads entry `j` of row `b`. -/
theorem idx_sum (b : Fin 16384) (j : Fin 2048) : idx_main_v22 (ix1 b) j = ix2 b j := by
  funext a; match a with | ⟨0, _⟩ => rfl | ⟨1, _⟩ => rfl

/-- The row's sum, broadcast along the row, is read at the row. -/
theorem idx_den (b : Fin 16384) (j : Fin 2048) : idx_main_v23 (idx_main_v24 (ix2 b j)) = ix1 b := by
  funext a; match a with | ⟨0, _⟩ => rfl

/-- Over row `b`, the index with `j` put on the dropped axis is `(b, j)`. -/
theorem lift_row (h : S16384x2048.Reduces [1] S16384) (b : Fin 16384) (j : Fin 2048) :
    h.lift (ix1 b) j = ix2 b j :=
  funext fun a => Fin.ext (by match a with | ⟨0, _⟩ => rfl | ⟨1, _⟩ => rfl)

/-! ## The long score -/

/-- Entry `(b, j)` of the scores the reference forms is minus one half of the expanded squared distance. -/
theorem score_apply (x : (⟨S16384x512, .f32⟩ : BufTy).Contents (Elt Ideal)) (c : (⟨S2048x512, .f32⟩ : BufTy).Contents (Elt Ideal))
    (b : Fin 16384) (j : Fin 2048) : val_main_v14 (F := Ideal) x c (ix2 b j) = distScore x c b j := by
  rw [val_main_v14_apply, val_main_v13_apply, val_main_cst_2_apply, val_main_v12_apply, val_main_v9_apply,
    val_main_v7_apply, val_main_v2_apply, val_main_v1_apply, val_main_cst_apply, val_main_v8_apply, val_main_v5_apply,
    val_main_v4_apply, val_main_cst_0_apply, val_main_v11_apply, val_main_v10_apply, val_main_cst_1_apply,
    val_main_v6_apply]
  simp only [val_main_v0_apply, val_main_v3_apply, idx_point, idx_centre, idx_left, idx_right]
  rfl

/-! ## The row's greatest score -/

/-- The reduction with the maximum as its body is, at row `b`, the fold of `max` from minus infinity over the row. -/
theorem reduceMax_apply (x : (⟨S16384x512, .f32⟩ : BufTy).Contents (Elt Ideal)) (c : (⟨S2048x512, .f32⟩ : BufTy).Contents (Elt Ideal))
    (b : Fin 16384) : val_main_v15 (F := Ideal) x c (ix1 b) = rowMax (distScore x c b) := by
  have h : S16384x2048.Reduces [1] S16384 := by decide
  unfold val_main_v15 rowMax
  refine (Host.reduce_eq_fold_single (FloatOps.maximumf (F := Ideal) (φ := .f32)) (val_main_v14 (F := Ideal) x c)
    (val_main_cst_3 (F := Ideal)) reducesTo_S16384x2048_S16384_d1 h h_S_ (ix1 b)).trans ?_
  exact Finset.fold_congr fun j _ =>
    (congrArg (val_main_v14 (F := Ideal) x c) (lift_row h b j)).trans (score_apply x c b j)

/-- Taking the maximum once more against minus infinity, as the reference does, leaves the row's greatest score. -/
theorem rowMax_apply (x : (⟨S16384x512, .f32⟩ : BufTy).Contents (Elt Ideal)) (c : (⟨S2048x512, .f32⟩ : BufTy).Contents (Elt Ideal))
    (b : Fin 16384) : val_main_v17 (F := Ideal) x c (ix1 b) = rowMax (distScore x c b) := by
  rw [val_main_v17_apply, val_main_v16_apply, val_main_cst_4_apply, reduceMax_apply]
  exact max_negInf_rowMax _

/-! ## The exponentials and their sum -/

/-- Entry `(b, j)` of the exponentials: of the score less the row's greatest score. -/
theorem exp_apply (x : (⟨S16384x512, .f32⟩ : BufTy).Contents (Elt Ideal)) (c : (⟨S2048x512, .f32⟩ : BufTy).Contents (Elt Ideal))
    (b : Fin 16384) (j : Fin 2048) :
    val_main_v21 (F := Ideal) x c (ix2 b j) = Ideal.exp (distScore x c b j - rowMax (distScore x c b)) := by
  rw [val_main_v21_apply, val_main_v20_apply, val_main_v19_apply, val_main_v18_apply, idx_max, rowMax_apply, score_apply]
  rfl

/-- The row's sum of exponentials; the zero the sum starts from adds nothing. -/
theorem sum_apply (x : (⟨S16384x512, .f32⟩ : BufTy).Contents (Elt Ideal)) (c : (⟨S2048x512, .f32⟩ : BufTy).Contents (Elt Ideal))
    (b : Fin 16384) :
    val_main_v22 (F := Ideal) x c (ix1 b) = ∑ j : Fin 2048, Ideal.exp (distScore x c b j - rowMax (distScore x c b)) := by
  rw [val_main_v22_apply, val_main_cst_5_apply]
  simp only [idx_sum, exp_apply]
  rw [Ideal.ofBits_def, Ideal.ofBits_zero_f32, zero_add]

/-! ## The reference is the responsibilities -/

/-- The idealized reference, read index by index, is the softmax over the centres of each point's scores: it forms the
    long scores, and for real points and centres those give the same softmax as the short ones. -/
theorem result_eq (x : (⟨S16384x512, .f32⟩ : BufTy).Contents (Elt Ideal)) (c : (⟨S2048x512, .f32⟩ : BufTy).Contents (Elt Ideal))
    (hx : ∀ i, ∃ r : ℝ, x i = (r : EReal)) (hc : ∀ i, ∃ r : ℝ, c i = (r : EReal)) :
    val_main_v25 (F := Ideal) x c = resp x c := by
  funext i
  obtain ⟨b, k, rfl⟩ : ∃ (b : Fin 16384) (k : Fin 2048), i = ix2 b k := ⟨i 0, i 1, eq_ix2 i⟩
  rw [resp_apply, ← softmax_distScore x c hx hc b, val_main_v25_apply, val_main_v24_apply, val_main_v23_apply, idx_den,
    sum_apply, exp_apply]
  rfl

end Cert.ReferenceIdeal.RefValue

end
-- ==== Proof.lean ====
/-
  Soft cluster responsibilities: the tiled kernel against the plain formula.

  For points x (16384 × 512) and centres c (2048 × 512) both programs return, for every point b and centre k, the
  softmax over k of a score. The reference scores by minus one half of the squared distance, expanded as
  (-1/2) ((|x_b|² + |c_k|²) − 2 <x_b, c_k>); the kernel drops the term that depends on the point only and scores by
  <x_b, c_k> − (1/2) |c_k|², on blocks of 512 points at a time, with the centres' squared lengths added up once before
  the launch. Both subtract the row's greatest score before the exponential. For real inputs the two scores differ by
  (1/2) |x_b|², the same for every centre, and a softmax with the greatest entry subtracted does not see such a shift;
  the inputs are real because the precondition says every entry is finite. In exact arithmetic a change of float
  format is the identity, a product on the matrix unit into zero is the plain sum of products, and the order in which a
  sum or a maximum is taken does not matter, so nothing else separates the two programs.

  The three frame claims are the generated frames (the reference's is its generated run with the result dropped); the
  idealization rewrote nothing, so its claim is trivial; the value claim puts the kernel's run, read block by block
  (Blocks, over the body's entry-wise reading in Payload), beside the reference's run read index by index (RefIsResp),
  both at the one function `Cert.Responsibilities.resp` of the argument arrays (Spec), with the precondition read in
  Finite.
-/
import proofs.«115839_j57174604645136_2_alg».proof.Defs
import proofs.«115839_j57174604645136_2_alg».proof.Proof.Gen.Kernel
import proofs.«115839_j57174604645136_2_alg».proof.Proof.Gen.Kernel.Frame
import proofs.«115839_j57174604645136_2_alg».proof.Proof.Gen.KernelIdeal
import proofs.«115839_j57174604645136_2_alg».proof.Proof.Gen.KernelIdeal.Frame
import proofs.«115839_j57174604645136_2_alg».proof.Proof.Gen.KernelIdeal.Value
import proofs.«115839_j57174604645136_2_alg».proof.Proof.Gen.ReferenceIdeal
import proofs.«115839_j57174604645136_2_alg».proof.Proof.Gen.ReferenceIdeal.Run
import proofs.«115839_j57174604645136_2_alg».proof.Proof.Gen.ReferenceIdeal.Read
import proofs.«115839_j57174604645136_2_alg».proof.Proof.Gen.Pre_finite_inputs
import proofs.«115839_j57174604645136_2_alg».proof.Proof.Spec
import proofs.«115839_j57174604645136_2_alg».proof.Proof.Finite
import proofs.«115839_j57174604645136_2_alg».proof.Proof.Payload
import proofs.«115839_j57174604645136_2_alg».proof.Proof.Blocks
import proofs.«115839_j57174604645136_2_alg».proof.Proof.RefIsResp

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the responsibilities of the (agreeing, real-valued) argument arrays. -/
theorem algebraic : Cert.algebraic_KernelIdeal_ReferenceIdeal := by
  intro m ρ m' ρ' hpre hagree
  refine ⟨fun c => Cert.Responsibilities.resp
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ Cert.KernelIdeal.Body.payload_apply, ?_⟩
  refine (θ_run Cert.ReferenceIdeal.defs _ _).mono (fun _ h c => ⟨(h c).1.trans ?_, (h c).2⟩)
    (Cert.ReferenceIdeal.Value.run (F := Ideal) m' ρ')
  obtain ⟨hx, hc⟩ := Cert.Proof.Finite.real_of_pre _ _ (hpre c)
  rw [Cert.ReferenceIdeal.Read.val_main_v25_eq, (hagree c).1, (hagree c).2]
  exact Cert.ReferenceIdeal.RefValue.result_eq _ _ hx hc

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
